-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | .hbm, ⟨122, _⟩ => ⟨S_, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its result named. The program is a line of host operations, a tiled
  matrix product, a second line, a second tiled product and a last line. Every weakly fair execution terminates without
  a fault, and afterwards every buffer that outlives the regions holds the contents obtained by folding the three lines
  and the two regions' write-backs over the launch memory. Read at the result buffer this names the program's result;
  read at the six arguments it says they end as launched.
-/
import proofs.«101309_j67886253081017_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters the program terminates, nothing faulting; its result buffer ends at the
    last boundary's contents (the fold of the host lines and the regions' write-backs), and its arguments end as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.Region0.lean ====
/-
  What the first tiled matrix product leaves in its output array. The region walks ten row tiles of 5000 rows. At tile
  t it reads rows 5000·t … 5000·t+4999 of the left operand [50000,128] and the whole right operand [128,128], multiplies
  them into a zero accumulator (the change of float format on the way in is the identity on extended reals) and writes
  the product back as rows 5000·t … 5000·t+4999 of the output. Entry (p, q) of the tile's product is
  Σ_k left(5000·t+p, k)·right(k, q), which is entry (5000·t+p, q) of the whole product [50000,128]·[128,128] — the same
  sum the host's dot_general takes. The ten tiles cover every row once (row r lies in tile r / 5000), so the output array
  ends holding the whole product of the two arrays as the region found them.
-/
import proofs.«101309_j67886253081017_1_alg».proof.Proof.Gen.KernelIdeal.Frame
import proofs.«101309_j67886253081017_1_alg».proof.Proof.Gen.ReferenceIdeal
import proofs.«101309_j67886253081017_1_alg».proof.Proof.LibDenseRows

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The whole product's dimension numbers (contract the left columns with the right rows). -/
abbrev DW : DotDims S50000x128 S128x128 S50000x128 := Cert.ReferenceIdeal.dot_S50000x128_S128x128_S50000x128_1_0_0_1_n_n
/-- One tile's dimension numbers. -/
abbrev DT : DotDims S5000x128 S128x128 S5000x128 := dot_S5000x128_S128x128_S5000x128_1_0_0_1_n_n

theorem hz : (![0, 0] : Fin 2 → Nat) = fun _ => 0 := funext fun a => by fin_cases a <;> rfl

/-! ## The dimension numbers keep the left rows and the right columns in place -/

theorem whole_l0 (j : S50000x128.Idx) (k : DW.contr.Idx) : (DW.lhsIdx j k (0 : Fin 2)).val = (j (0 : Fin 2)).val := by
  unfold DotDims.lhsIdx
  rw [dif_neg (show ¬(0 : Fin S50000x128.rank) ∈ DW.lhsBatch by decide), dif_pos (show (0 : Fin S50000x128.rank) ∈ DW.lhsNonContracting by decide)]
  rfl
theorem whole_r1 (j : S50000x128.Idx) (k : DW.contr.Idx) : (DW.rhsIdx j k (1 : Fin 2)).val = (j (1 : Fin 2)).val := by
  unfold DotDims.rhsIdx
  rw [dif_neg (show ¬(1 : Fin S128x128.rank) ∈ DW.rhsBatch by decide), dif_pos (show (1 : Fin S128x128.rank) ∈ DW.rhsNonContracting by decide)]
  rfl
theorem tile_l0 (j : S5000x128.Idx) (k : DT.contr.Idx) : (DT.lhsIdx j k (0 : Fin 2)).val = (j (0 : Fin 2)).val := by
  unfold DotDims.lhsIdx
  rw [dif_neg (show ¬(0 : Fin S5000x128.rank) ∈ DT.lhsBatch by decide), dif_pos (show (0 : Fin S5000x128.rank) ∈ DT.lhsNonContracting by decide)]
  rfl
theorem tile_r1 (j : S5000x128.Idx) (k : DT.contr.Idx) : (DT.rhsIdx j k (1 : Fin 2)).val = (j (1 : Fin 2)).val := by
  unfold DotDims.rhsIdx
  rw [dif_neg (show ¬(1 : Fin S128x128.rank) ∈ DT.rhsBatch by decide), dif_pos (show (1 : Fin S128x128.rank) ∈ DT.rhsNonContracting by decide)]
  rfl

/-! ## One tile -/

/-- Entry (p, q) of a tile's product: the sum over k of the tile's row p times the right operand's column q. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.DenseRows.matmul_zero_plain_apply (M := 5000) (K := 128) (N := 128) DT rfl rfl rfl rfl tile_l0 tile_r1 _ _ p q

/-- A tile whose rows are rows of `A` (row p of the tile is row r of `A`) and whose right operand is `W`: entry (p, q)
    of its product is entry (r, q) of the whole product `A · W`. -/
theorem tile_eq (A : FVec Ideal S50000x128 .f32) (W : FVec Ideal S128x128 .f32)
    (x0 : Vec Ideal S5000x128 .f32) (x1 : Vec Ideal S128x128 .f32) (j : S5000x128.Idx) (i : S50000x128.Idx)
    (hi1 : (i 1).val = (j 1).val)
    (h0 : ∀ k : Fin 128, x0 (ix2 (j 0) k) = A (ix2 (i 0) k)) (h1 : ∀ k : Fin 128, x1 (ix2 k (j 1)) = W (ix2 k (j 1))) :
    k0_pay1 (F := Ideal) x0 x1 j = Host.dotGeneral (F := Ideal) (φ₁ := .f32) (φ₂ := .f32) DW none A W i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [pay_apply, Cert.DenseRows.dotGeneral_plain_apply (M := 50000) (K := 128) (N := 128) DW rfl rfl rfl rfl whole_l0 whole_r1 A W r s]
  exact Finset.sum_congr rfl fun k _ => by rw [h0 k, h1 k]

/-! ## The tiles over the grid -/

/-- The printed index maps, decided over the ten points: the left operand's tile moves with the output's, the right
    operand stays whole, and the output's tile at point t is tile t. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- What point t writes back is tile t of the whole product of the two arrays as the region finds them. -/
theorem flushed_eq (c : Dev nD) (t : Fin cfg0.N) :
    (dat0 V c).flushed 2 t
      = ((cfg0.win 2).blk t).view.read (Elt Ideal) (Host.dotGeneral (F := Ideal) (φ₁ := .f32) (φ₂ := .f32) DW none (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j
      = Host.dotGeneral (F := Ideal) (φ₁ := .f32) (φ₂ := .f32) DW none (V c main_arg0) (V c main_arg2) (((cfg0.win 2).blk t).view.emb j)
  refine tile_eq (V c main_arg0) (V c main_arg2) (iblk0 V c 0 t) (iblk0 V c 1 t) j (((cfg0.win 2).blk t).view.emb j) ?_ ?_ ?_
  · show win0_2.index t (1 : Fin 2) * 128 + 1 * (j 1).val = (j 1).val
    omega
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show V c main_arg2 (((cfg0.win 1).blk t).view.emb (ix2 k (j 1))) = V c main_arg2 (ix2 k (j 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega

/-- An index of the output array is in point t's tile iff each coordinate is in the tile's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in some point's tile: row r in tile r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by rw [show cfg0.N = 10 from N_0]; omega
  obtain ⟨e0, e1, e2, e3, e4, e5⟩ := idx_facts ⟨(i 0).val / 5000, hN⟩
  have e5' : win0_2.index ⟨(i 0).val / 5000, hN⟩ (0 : Fin 2) = (i 0).val / 5000 := e5
  refine ⟨⟨(i 0).val / 5000, hN⟩, flush0_2 _, ?_⟩
  rw [mem_blk]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- The output array after the region: the whole product of the two arrays as the region found them. -/
theorem array_eq (c : Dev nD) :
    (dat0 V c).arrAt 2 cfg0.N = Host.dotGeneral (F := Ideal) (φ₁ := .f32) (φ₂ := .f32) DW none (V c main_arg0) (V c main_arg2) :=
  (dat0 V c).arrAt_eq_of_cover 2 _ (fun t _ => flushed_eq V c t) cover

end Cert.KernelIdeal.Region0

end
-- ==== Proof.Region1.lean ====
/-
  What the second tiled matrix product leaves in its output array. The region walks ten row tiles of 5000 rows. At tile
  t it reads rows 5000·t … 5000·t+4999 of the left operand [50000,128] (the first layer's activations) and the whole right
  operand [128,64], multiplies them into a zero accumulator (the cast of the tile to its own shape and the change of float
  format on the way in are the identity on extended reals) and writes the product back as rows 5000·t … 5000·t+4999 of
  the output. Entry (p, q) of the tile's product is Σ_k left(5000·t+p, k)·right(k, q), which is entry (5000·t+p, q) of the
  whole product [50000,128]·[128,64] — the same sum the host's dot_general takes. The ten tiles cover every row once (row r lies in tile r / 5000), so the output array
  ends holding the whole product of the two arrays as the region found them.
-/
import proofs.«101309_j67886253081017_1_alg».proof.Proof.Gen.KernelIdeal.Frame
import proofs.«101309_j67886253081017_1_alg».proof.Proof.Gen.ReferenceIdeal
import proofs.«101309_j67886253081017_1_alg».proof.Proof.LibDenseRows

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The whole product's dimension numbers (contract the left columns with the right rows). -/
abbrev DW : DotDims S50000x128 S128x64 S50000x64 := Cert.ReferenceIdeal.dot_S50000x128_S128x64_S50000x64_1_0_0_1_n_n
/-- One tile's dimension numbers. -/
abbrev DT : DotDims S5000x128 S128x64 S5000x64 := dot_S5000x128_S128x64_S5000x64_1_0_0_1_n_n

theorem hz : (![0, 0] : Fin 2 → Nat) = fun _ => 0 := funext fun a => by fin_cases a <;> rfl

/-! ## The dimension numbers keep the left rows and the right columns in place -/

theorem whole_l0 (j : S50000x64.Idx) (k : DW.contr.Idx) : (DW.lhsIdx j k (0 : Fin 2)).val = (j (0 : Fin 2)).val := by
  unfold DotDims.lhsIdx
  rw [dif_neg (show ¬(0 : Fin S50000x128.rank) ∈ DW.lhsBatch by decide), dif_pos (show (0 : Fin S50000x128.rank) ∈ DW.lhsNonContracting by decide)]
  rfl
theorem whole_r1 (j : S50000x64.Idx) (k : DW.contr.Idx) : (DW.rhsIdx j k (1 : Fin 2)).val = (j (1 : Fin 2)).val := by
  unfold DotDims.rhsIdx
  rw [dif_neg (show ¬(1 : Fin S128x64.rank) ∈ DW.rhsBatch by decide), dif_pos (show (1 : Fin S128x64.rank) ∈ DW.rhsNonContracting by decide)]
  rfl
theorem tile_l0 (j : S5000x64.Idx) (k : DT.contr.Idx) : (DT.lhsIdx j k (0 : Fin 2)).val = (j (0 : Fin 2)).val := by
  unfold DotDims.lhsIdx
  rw [dif_neg (show ¬(0 : Fin S5000x128.rank) ∈ DT.lhsBatch by decide), dif_pos (show (0 : Fin S5000x128.rank) ∈ DT.lhsNonContracting by decide)]
  rfl
theorem tile_r1 (j : S5000x64.Idx) (k : DT.contr.Idx) : (DT.rhsIdx j k (1 : Fin 2)).val = (j (1 : Fin 2)).val := by
  unfold DotDims.rhsIdx
  rw [dif_neg (show ¬(1 : Fin S128x64.rank) ∈ DT.rhsBatch by decide), dif_pos (show (1 : Fin S128x64.rank) ∈ DT.rhsNonContracting by decide)]
  rfl

/-! ## One tile -/

/-- Entry (p, q) of a tile's product: the sum over k of the tile's row p times the right operand's column q. -/
theorem pay_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  rw [shapeCast_self x0]
  exact Cert.DenseRows.matmul_zero_plain_apply (M := 5000) (K := 128) (N := 64) DT rfl rfl rfl rfl tile_l0 tile_r1 _ _ p q

/-- A tile whose rows are rows of `A` (row p of the tile is row r of `A`) and whose right operand is `W`: entry (p, q)
    of its product is entry (r, q) of the whole product `A · W`. -/
theorem tile_eq (A : FVec Ideal S50000x128 .f32) (W : FVec Ideal S128x64 .f32)
    (x0 : Vec Ideal S5000x128 .f32) (x1 : Vec Ideal S128x64 .f32) (j : S5000x64.Idx) (i : S50000x64.Idx)
    (hi1 : (i 1).val = (j 1).val)
    (h0 : ∀ k : Fin 128, x0 (ix2 (j 0) k) = A (ix2 (i 0) k)) (h1 : ∀ k : Fin 128, x1 (ix2 k (j 1)) = W (ix2 k (j 1))) :
    k1_pay1 (F := Ideal) x0 x1 j = Host.dotGeneral (F := Ideal) (φ₁ := .f32) (φ₂ := .f32) DW none A W i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hi1
  subst hs
  rw [pay_apply, Cert.DenseRows.dotGeneral_plain_apply (M := 50000) (K := 128) (N := 64) DW rfl rfl rfl rfl whole_l0 whole_r1 A W r s]
  exact Finset.sum_congr rfl fun k _ => by rw [h0 k, h1 k]

/-! ## The tiles over the grid -/

/-- The printed index maps, decided over the ten points: the left operand's tile moves with the output's, the right
    operand stays whole, and the output's tile at point t is tile t. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

/-- What point t writes back is tile t of the whole product of the two arrays as the region finds them. -/
theorem flushed_eq (c : Dev nD) (t : Fin cfg1.N) :
    (dat1 V c).flushed 2 t
      = ((cfg1.win 2).blk t).view.read (Elt Ideal) (Host.dotGeneral (F := Ideal) (φ₁ := .f32) (φ₂ := .f32) DW none (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  show k1_pay1 (F := Ideal) (iblk1 V c 0 t) (iblk1 V c 1 t) j
      = Host.dotGeneral (F := Ideal) (φ₁ := .f32) (φ₂ := .f32) DW none (V c main_v47) (V c main_arg4) (((cfg1.win 2).blk t).view.emb j)
  refine tile_eq (V c main_v47) (V c main_arg4) (iblk1 V c 0 t) (iblk1 V c 1 t) j (((cfg1.win 2).blk t).view.emb j) ?_ ?_ ?_
  · show win1_2.index t (1 : Fin 2) * 64 + 1 * (j 1).val = (j 1).val
    omega
  · intro k
    show V c main_v47 (((cfg1.win 0).blk t).view.emb (ix2 (j 0) k)) = V c main_v47 (ix2 ((((cfg1.win 2).blk t).view.emb j) 0) k)
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · intro k
    show V c main_arg4 (((cfg1.win 1).blk t).view.emb (ix2 k (j 1))) = V c main_arg4 (ix2 k (j 1))
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * (j 1).val = (j 1).val; omega

/-- An index of the output array is in point t's tile iff each coordinate is in the tile's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every index of the output array lies in some point's tile: row r in tile r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 5000 < cfg1.N := by rw [show cfg1.N = 10 from N_1]; omega
  obtain ⟨e0, e1, e2, e3, e4, e5⟩ := idx_facts ⟨(i 0).val / 5000, hN⟩
  have e5' : win1_2.index ⟨(i 0).val / 5000, hN⟩ (0 : Fin 2) = (i 0).val / 5000 := e5
  refine ⟨⟨(i 0).val / 5000, hN⟩, flush1_2 _, ?_⟩
  rw [mem_blk]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 64 ≤ (i 1).val ∧ (i 1).val < win1_2.index ⟨(i 0).val / 5000, hN⟩ (1 : Fin 2) * 64 + 64; omega

/-- The output array after the region: the whole product of the two arrays as the region found them. -/
theorem array_eq (c : Dev nD) :
    (dat1 V c).arrAt 2 cfg1.N = Host.dotGeneral (F := Ideal) (φ₁ := .f32) (φ₂ := .f32) DW none (V c main_v47) (V c main_arg4) :=
  (dat1 V c).arrAt_eq_of_cover 2 _ (fun t _ => flushed_eq V c t) cover

end Cert.KernelIdeal.Region1

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.LibConcatPair.lean ====
/-
  The join of two arrays along an axis, as a function of the two arrays. For shapes s₁, s₂ that agree off axis a and a
  result shape t whose extent on axis a is the sum of theirs, entry j of the join is x at j when j's coordinate on the axis
  is below s₁'s extent there, and y at j shifted back by that extent otherwise. The library states a join over a list of
  (shape, array) pairs; for a list of two pairs it is this function of the two arrays, by definition.
-/
import Idealize.ShloMosaic.PureOps.ShapeOps

namespace Cert.ConcatPair

open Idealize.ShloMosaic

variable {α : Type}

/-- Two arrays `x : s₁`, `y : s₂` joined along axis `a` of the result shape `t`, in this order. -/
def cat2 (t : Shape) (a : Fin t.rank) (s₁ s₂ : Shape) (h : Shape.Concatenates [s₁, s₂] t a) (x : s₁.Idx → α) (y : s₂.Idx → α) :
    t.Idx → α :=
  concatenate t a [⟨s₁, x⟩, ⟨s₂, y⟩] h

/-- The join of the two-element list `[(s₁, x), (s₂, y)]` is the join of `x` and `y`. -/
theorem concatenate_pair (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

end Cert.ConcatPair
-- ==== Proof.Bridge.lean ====
/-
  The idealized kernel program and the idealized reference end with one result.
  Both programs are two graph-convolution layers over N = 50000 nodes and E = 850000 edges (the 800000 given edges
  followed by one self loop per node): with src, dst the edge ends, deg(v) the number of edges into v,
  dinv = (deg > 0 ? rsqrt deg : 0) and norm(e) = dinv(src e) · dinv(dst e), a layer sends h to
  relu(Σ_{e : dst e = v} (h·W)(src e) · norm(e) + b). The two programs spell the edge ends, the degree, the norm, the
  gather, the scaling, the scatter-add, the bias and the relu with the same host operations in the same order; they
  differ only in h·W, which the reference takes by one dot_general and the kernel program by a region of ten row tiles —
  and the region's output array is that same whole product. So, read back operation by operation to the
  launch contents, the two result buffers are one term of the six arguments, on which the two launches agree.
-/
import proofs.«101309_j67886253081017_1_alg».proof.Proof.Gen.KernelIdeal.Frame
import proofs.«101309_j67886253081017_1_alg».proof.Proof.RefRun
import proofs.«101309_j67886253081017_1_alg».proof.Proof.Region0
import proofs.«101309_j67886253081017_1_alg».proof.Proof.Region1
import proofs.«101309_j67886253081017_1_alg».proof.Proof.LibOpenLists
import proofs.«101309_j67886253081017_1_alg».proof.Proof.LibConcatPair

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

set_option maxHeartbeats 4000000 in
/-- From launch memories that agree on the six arguments, the reference's result buffer and the kernel program's hold
    the same array. -/
theorem result_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    after Cert.ReferenceIdeal.RunP.ops (launchContents m' c) (Proc.devRef .tc Cert.ReferenceIdeal.main_v88)
      = W9 m ρ c (Proc.devRef .tc main_v65) := by
  -- the second region's exit: its output array is the whole product, every other buffer is as entered
  have a7 : W7 m ρ c (Proc.devRef .tc main_v48)
      = Host.dotGeneral (F := Ideal) (φ₁ := .f32) (φ₂ := .f32) Cert.KernelIdeal.Region1.DW none
          (W6 m ρ c (Proc.devRef .tc main_v47)) (W6 m ρ c (Proc.devRef .tc main_arg4)) :=
    (W7_arr m ρ c 2).trans (Cert.KernelIdeal.Region1.array_eq (V6 m ρ) c)
  have b7_3 : W7 m ρ c (Proc.devRef .tc main_v3) = W6 m ρ c (Proc.devRef .tc main_v3) := W7_of_ne m ρ c main_v3 (by decide)
  have b7_6 : W7 m ρ c (Proc.devRef .tc main_v6) = W6 m ρ c (Proc.devRef .tc main_v6) := W7_of_ne m ρ c main_v6 (by decide)
  have b7_29 : W7 m ρ c (Proc.devRef .tc main_v29) = W6 m ρ c (Proc.devRef .tc main_v29) := W7_of_ne m ρ c main_v29 (by decide)
  have b7_a5 : W7 m ρ c (Proc.devRef .tc main_arg5) = W6 m ρ c (Proc.devRef .tc main_arg5) := W7_of_ne m ρ c main_arg5 (by decide)
  -- the first region's exit
  have a4 : W4 m ρ c (Proc.devRef .tc main_v30)
      = Host.dotGeneral (F := Ideal) (φ₁ := .f32) (φ₂ := .f32) Cert.KernelIdeal.Region0.DW none
          (W3 m ρ c (Proc.devRef .tc main_arg0)) (W3 m ρ c (Proc.devRef .tc main_arg2)) :=
    (W4_arr m ρ c 2).trans (Cert.KernelIdeal.Region0.array_eq (V3 m ρ) c)
  have b4_3 : W4 m ρ c (Proc.devRef .tc main_v3) = W3 m ρ c (Proc.devRef .tc main_v3) := W4_of_ne m ρ c main_v3 (by decide)
  have b4_6 : W4 m ρ c (Proc.devRef .tc main_v6) = W3 m ρ c (Proc.devRef .tc main_v6) := W4_of_ne m ρ c main_v6 (by decide)
  have b4_29 : W4 m ρ c (Proc.devRef .tc main_v29) = W3 m ρ c (Proc.devRef .tc main_v29) := W4_of_ne m ρ c main_v29 (by decide)
  have b4_a3 : W4 m ρ c (Proc.devRef .tc main_arg3) = W3 m ρ c (Proc.devRef .tc main_arg3) := W4_of_ne m ρ c main_arg3 (by decide)
  have b4_a4 : W4 m ρ c (Proc.devRef .tc main_arg4) = W3 m ρ c (Proc.devRef .tc main_arg4) := W4_of_ne m ρ c main_arg4 (by decide)
  have b4_a5 : W4 m ρ c (Proc.devRef .tc main_arg5) = W3 m ρ c (Proc.devRef .tc main_arg5) := W4_of_ne m ρ c main_arg5 (by decide)
  -- the launch contents, on which the two programs agree
  have k0 : W0 m ρ c (Proc.devRef .tc main_arg0) = m ((c.tc : Thread nD τ).loc main_arg0) := rfl
  have k1 : W0 m ρ c (Proc.devRef .tc main_arg1) = m ((c.tc : Thread nD τ).loc main_arg1) := rfl
  have k2 : W0 m ρ c (Proc.devRef .tc main_arg2) = m ((c.tc : Thread nD τ).loc main_arg2) := rfl
  have k3 : W0 m ρ c (Proc.devRef .tc main_arg3) = m ((c.tc : Thread nD τ).loc main_arg3) := rfl
  have k4 : W0 m ρ c (Proc.devRef .tc main_arg4) = m ((c.tc : Thread nD τ).loc main_arg4) := rfl
  have k5 : W0 m ρ c (Proc.devRef .tc main_arg5) = m ((c.tc : Thread nD τ).loc main_arg5) := rfl
  have r0 : launchContents m' c (Proc.devRef .tc Cert.ReferenceIdeal.main_arg0) = m ((c.tc : Thread nD τ).loc main_arg0) := h0
  have r1 : launchContents m' c (Proc.devRef .tc Cert.ReferenceIdeal.main_arg1) = m ((c.tc : Thread nD τ).loc main_arg1) := h1
  have r2 : launchContents m' c (Proc.devRef .tc Cert.ReferenceIdeal.main_arg2) = m ((c.tc : Thread nD τ).loc main_arg2) := h2
  have r3 : launchContents m' c (Proc.devRef .tc Cert.ReferenceIdeal.main_arg3) = m ((c.tc : Thread nD τ).loc main_arg3) := h3
  have r4 : launchContents m' c (Proc.devRef .tc Cert.ReferenceIdeal.main_arg4) = m ((c.tc : Thread nD τ).loc main_arg4) := h4
  have r5 : launchContents m' c (Proc.devRef .tc Cert.ReferenceIdeal.main_arg5) = m ((c.tc : Thread nD τ).loc main_arg5) := h5
  -- read both result buffers back, operation by operation, to the launch contents
  dsimp only [W9, W8, hostOps2, hostOps2_1, Cert.ReferenceIdeal.RunP.ops]
  open_lists [Cert.ConcatPair.concatenate_pair, a7, b7_3, b7_6, b7_29, b7_a5, a4, b4_3, b4_6, b4_29, b4_a3, b4_a4, b4_a5, k0, k1, k2, k3, k4, k5, r0, r1, r2, r3, r4, r5]
  rfl

end Cert.Bridge

end
-- ==== Proof.lean ====
/-
  The certificate's five claims for a two-layer graph convolution whose two dense products run as tiled regions.

  The programs. Over N = 50000 nodes with features x [N,128] and E = 850000 edges (the 800000 given ones and a self loop
  per node), with deg(v) the number of edges into v, dinv = (deg > 0 ? rsqrt deg : 0) and norm(e) = dinv(src e)·dinv(dst e),
  both programs compute  h₁ = relu(Σ_{e : dst e = v} (x·W₁)(src e)·norm(e) + b₁)  and then
  h₂ = relu(Σ_{e : dst e = v} (h₁·W₂)(src e)·norm(e) + b₂)  [N,64]. The kernel program takes x·W₁ and h₁·W₂ in two regions of
  ten row tiles each (operands rounded to a narrower float format on the way in, accumulated from zero); the reference takes
  them by dot_general, and recomputes norm for the second layer from the same edge ends.

  Why they agree on the extended reals. A change of float format is the identity; a tile's product entry is the sum over
  k of the row times the column, which is the whole product's entry at that row, and the tiles cover every row; so each
  region's output array is the array the reference's dot_general writes. Everything else — edge ends, degrees, norm,
  gather, scaling, scatter-add, bias, relu — is the same operations in the same order on both sides, so read back to the
  launch contents the two results are one term of the arguments. No law of arithmetic is used beyond the product's entry as
  a sum, so the precondition (finite inputs) is never opened.

  The frames: the two kernel programs' are the generated frame certificates; the reference's is its run with the result
  dropped. The idealization rewrote no operation, so `preserves` asks nothing.
-/
import proofs.«101309_j67886253081017_1_alg».proof.Defs
import proofs.«101309_j67886253081017_1_alg».proof.Proof.Gen.Kernel
import proofs.«101309_j67886253081017_1_alg».proof.Proof.Gen.Kernel.Skeleton
import proofs.«101309_j67886253081017_1_alg».proof.Proof.Gen.Kernel.Launch
import proofs.«101309_j67886253081017_1_alg».proof.Proof.Gen.Kernel.Points
import proofs.«101309_j67886253081017_1_alg».proof.Proof.Gen.Kernel.Frame
import proofs.«101309_j67886253081017_1_alg».proof.Proof.Gen.KernelIdeal
import proofs.«101309_j67886253081017_1_alg».proof.Proof.Gen.KernelIdeal.Skeleton
import proofs.«101309_j67886253081017_1_alg».proof.Proof.Gen.KernelIdeal.Launch
import proofs.«101309_j67886253081017_1_alg».proof.Proof.Gen.KernelIdeal.Points
import proofs.«101309_j67886253081017_1_alg».proof.Proof.Gen.KernelIdeal.Frame
import proofs.«101309_j67886253081017_1_alg».proof.Proof.Gen.ReferenceIdeal
import proofs.«101309_j67886253081017_1_alg».proof.Proof.Gen.Pre_finite_inputs
import proofs.«101309_j67886253081017_1_alg».proof.Proof.KernelRun
import proofs.«101309_j67886253081017_1_alg».proof.Proof.RefRun
import proofs.«101309_j67886253081017_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both idealized programs run, and the reference's result is the kernel
    program's: the last boundary's contents at the result buffer. -/
theorem algebraic : Cert.algebraic_KernelIdeal_ReferenceIdeal := by
  intro m ρ m' ρ' _ hagree
  refine ⟨fun c => Cert.KernelIdeal.Gen.W9 m ρ c (Proc.devRef .tc Cert.KernelIdeal.main_v65),
    Cert.KernelIdeal.Named.run (F := Ideal) m ρ, ?_⟩
  refine (θ_run Cert.ReferenceIdeal.defs _ _).mono (fun _ h c => ⟨(h c).1.trans ?_, (h c).2⟩)
    (Cert.ReferenceIdeal.RunP.run (F := Ideal) m' ρ')
  exact Cert.Bridge.result_eq m ρ m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
